-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S8192 : Shape := ⟨1, ![8192]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S4096x4096x1 : Shape := ⟨3, ![4096, 4096, 1]⟩
abbrev S256x4096 : Shape := ⟨2, ![256, 4096]⟩
abbrev S4096x2048 : Shape := ⟨2, ![4096, 2048]⟩
abbrev S1x2048 : Shape := ⟨2, ![1, 2048]⟩
abbrev S256x2048 : Shape := ⟨2, ![256, 2048]⟩

abbrev nBuf : Space → Nat
  | .hbm => 29
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S8192, .f32⟩
  | .hbm, ⟨4, _⟩ => ⟨S8192, .bf16⟩
  | .hbm, ⟨5, _⟩ => ⟨S4096, .i32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S_, .i32⟩
  | .hbm, ⟨13, _⟩ => ⟨S1x4096, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096x1, .i32⟩
  | .hbm, ⟨26, _⟩ => ⟨S4096x4096, .bf16⟩
  | .hbm, ⟨27, _⟩ => ⟨S1x4096, .f32⟩
  | .hbm, ⟨28, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x2048, .bf16⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S4096_S4096_S8192_d0 : Shape.Concatenates [S4096, S4096] S8192 0
  bitsLt_bf16_f32 : FTy.bits .bf16 < FTy.bits .f32
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  gather_S8192_S4096x4096x1_S4096x4096_n_0_n_n_0_2_1_wf : GatherDims.WF S8192 S4096x4096x1 S4096x4096 [] [0] [] [0] [] 2 ![1]
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x4096.size a
  hwx0_1 : ∀ i : grid0.Coords, EltTy.bits .bf16 = 32 ∨ (Rect.block (s := S4096x4096) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x4096.size a
  hwx0_3 : ∀ i : grid0.Coords, EltTy.bits .f32 = 32 ∨ (Rect.block (s := S16384x4096) S256x2048.size (cc0_transform_3 i) (hinb0_3 i)).WholeWords (EltTy.packing .f32)

variable [Facts₀]

def gather_S8192_S4096x4096x1_S4096x4096_n_0_n_n_0_2_1 : GatherDims S8192 S4096x4096x1 S4096x4096 where
  offsetDims := []
  collapsedSliceDims := [0]
  operandBatchingDims := []
  startIndicesBatchingDims := []
  startIndexMap := [0]
  indexVectorDim := 2
  sliceSizes := ![1]
  wf := gather_S8192_S4096x4096x1_S4096x4096_n_0_n_n_0_2_1_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S8192 : Shape := ⟨1, ![8192]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S4096x4096x1 : Shape := ⟨3, ![4096, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S8192, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S4096x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  concatenates_S4096_S4096_S8192_d0 : Shape.Concatenates [S4096, S4096] S8192 0
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S1x4096_S16384x4096_0_1 : S1x4096.BroadcastsInDim S16384x4096 (![0, 1] : Fin 2 → Fin S16384x4096.rank)
  gather_S8192_S4096x4096x1_S4096x4096_n_0_n_n_0_2_1_wf : GatherDims.WF S8192 S4096x4096x1 S4096x4096 [] [0] [] [0] [] 2 ![1]
  dot_S16384x4096_S4096x4096_S16384x4096_1_1_0_0_n_n_wf : DotDims.WF S16384x4096 S4096x4096 S16384x4096 [1] [1] [0] [0] [] []

variable [Facts₀]

def gather_S8192_S4096x4096x1_S4096x4096_n_0_n_n_0_2_1 : GatherDims S8192 S4096x4096x1 S4096x4096 where
  offsetDims := []
  collapsedSliceDims := [0]
  operandBatchingDims := []
  startIndicesBatchingDims := []
  startIndexMap := [0]
  indexVectorDim := 2
  sliceSizes := ![1]
  wf := gather_S8192_S4096x4096x1_S4096x4096_n_0_n_n_0_2_1_wf
def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Spec.lean ====
/-
  The function both programs compute, stated once over literal shapes and no program: an affine map on the rows of
  `x`. Entry (r, c) of the result is the inner product of row `r` of `x` with column `c` of a square weight matrix
  `W`, plus entry `c` of a bias row. Sums and products are the extended reals'; nothing here needs finiteness,
  because the two programs will be shown to add the SAME products in the SAME order.
-/
import Idealize.ShloMosaic.PureOps.Ideal
import Idealize.ShloMosaic.Lib.ValueIdx

noncomputable section

open scoped BigOperators

namespace Cert.Toeplitz

open Idealize.ShloMosaic Idealize.ShloMosaic.ValueIdx

/-- Entry (r, c): row `r` of `x` against column `c` of `W`, plus the bias at `c`. -/
def affineAt (x : (⟨2, ![16384, 4096]⟩ : Shape).Idx → EReal) (W : (⟨2, ![4096, 4096]⟩ : Shape).Idx → EReal)
    (bias : (⟨2, ![1, 4096]⟩ : Shape).Idx → EReal) (r : Fin 16384) (c : Fin 4096) : EReal :=
  (∑ k : Fin 4096, x (ix2 r k) * W (ix2 k c)) + bias (ix2 (0 : Fin 1) c)

/-- The whole result array. -/
def affine (x : (⟨2, ![16384, 4096]⟩ : Shape).Idx → EReal) (W : (⟨2, ![4096, 4096]⟩ : Shape).Idx → EReal)
    (bias : (⟨2, ![1, 4096]⟩ : Shape).Idx → EReal) : (⟨2, ![16384, 4096]⟩ : Shape).Idx → EReal :=
  fun i => affineAt x W bias (i 0) (i 1)

theorem affine_apply (x : (⟨2, ![16384, 4096]⟩ : Shape).Idx → EReal) (W : (⟨2, ![4096, 4096]⟩ : Shape).Idx → EReal)
    (bias : (⟨2, ![1, 4096]⟩ : Shape).Idx → EReal) (r : Fin 16384) (c : Fin 4096) :
    affine x W bias (ix2 r c) = affineAt x W bias r c := rfl

end Cert.Toeplitz

end
-- ==== Proof.Body.lean ====
/-
  One grid point's arithmetic, read at an entry. The body multiplies a [256, 4096] block of `x` by a [4096, 2048]
  block of the weights into a zero accumulator and adds a [1, 2048] bias row broadcast down the 256 rows. At the
  ideal values the narrowing of the `x` block before the product is the identity and the product into zero is the
  plain sum over the contracted coordinate, so entry (r, c) of what is stored is
  `∑ k, xblock (r, k) * wblock (k, c) + biasrow (0, c)`.
-/
import proofs.«125374_j85014582657518_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's dimension numbers: rows of the left operand times columns of the right one, one contracted axis. -/
abbrev dd := dot_S256x4096_S4096x2048_S256x2048_1_0_0_1_n_n

/-- The left operand's row is the output's row. -/
theorem lhs_row (j : S256x2048.Idx) (q : dd.contr.Idx) : (dd.lhsIdx j q 0).val = (j 0).val := by
  unfold DotDims.lhsIdx
  rw [dif_neg (show ¬(0 : Fin S256x4096.rank) ∈ dd.lhsBatch by decide), dif_pos (show (0 : Fin S256x4096.rank) ∈ dd.lhsNonContracting by decide)]
  rfl
/-- The left operand's column is the contracted coordinate. -/
theorem lhs_col (j : S256x2048.Idx) (q : dd.contr.Idx) : (dd.lhsIdx j q 1).val = (q ⟨0, by decide⟩).val :=
  dd.lhsIdx_val_of_single rfl j q
/-- The right operand's row is the contracted coordinate. -/
theorem rhs_row (j : S256x2048.Idx) (q : dd.contr.Idx) : (dd.rhsIdx j q 0).val = (q ⟨0, by decide⟩).val :=
  dd.rhsIdx_val_of_single rfl j q
/-- The right operand's column is the output's column. -/
theorem rhs_col (j : S256x2048.Idx) (q : dd.contr.Idx) : (dd.rhsIdx j q 1).val = (j 1).val := by
  unfold DotDims.rhsIdx
  rw [dif_neg (show ¬(1 : Fin S4096x2048.rank) ∈ dd.rhsBatch by decide), dif_pos (show (1 : Fin S4096x2048.rank) ∈ dd.rhsNonContracting by decide)]
  rfl

/-- The block product into a zero accumulator, at entry (r, c): the inner product of row `r` and column `c`. -/
theorem product_apply (x0 : FVec Ideal S256x4096 .f32) (x1 : FVec Ideal S4096x2048 .bf16) (r : Fin 256) (c : Fin 2048) :
    FloatOps.matmul dd none (truncf .bf16 x0 bitsLt_bf16_f32) x1 (constant S256x2048 .f32 0x00000000#32) (ix2 r c)
      = ∑ k : Fin 4096, x0 (ix2 r k) * x1 (ix2 k c) := by
  rw [Ideal.matmul_constant_zero_apply, ← Equiv.sum_comp (contrEquiv1 dd 4096 rfl rfl).symm]
  refine Finset.sum_congr rfl fun k _ => ?_
  have hk := contrEquiv1_symm_val dd 4096 rfl rfl k
  have el : dd.lhsIdx (ix2 r c) ((contrEquiv1 dd 4096 rfl rfl).symm k) = ix2 r k := funext fun a => Fin.ext (by
    match a with
    | ⟨0, _⟩ => exact lhs_row _ _
    | ⟨1, _⟩ => exact (lhs_col _ _).trans hk)
  have er : dd.rhsIdx (ix2 r c) ((contrEquiv1 dd 4096 rfl rfl).symm k) = ix2 k c := funext fun a => Fin.ext (by
    match a with
    | ⟨0, _⟩ => exact (rhs_row _ _).trans hk
    | ⟨1, _⟩ => exact rhs_col _ _)
  rw [el, er]
  rfl

/-- WHAT THE BODY STORES, at entry (r, c) of its [256, 2048] block. -/
theorem pay_apply (x0 : FVec Ideal S256x4096 .f32) (x1 : FVec Ideal S4096x2048 .bf16) (x2 : FVec Ideal S1x2048 .f32)
    (r : Fin 256) (c : Fin 2048) :
    k0_pay1 (F := Ideal) x0 x1 x2 (ix2 r c) = (∑ k : Fin 4096, x0 (ix2 r k) * x1 (ix2 k c)) + x2 (ix2 (0 : Fin 1) c) := by
  unfold k0_pay1
  rw [shapeCast_self, shapeCast_self]
  exact congrArg₂ (· + ·) (product_apply x0 x1 r c) (broadcastTo_1b_ab_apply x2 broadcasts_S1x2048_S256x2048 r c)

end Cert.KernelIdeal.Body

end
-- ==== Proof.Whole.lean ====
/-
  From blocks to the whole result array. The grid has 2 × 64 points; point (q, p) takes rows 256 p … 256 p + 255 of
  `x` (all 4096 columns), columns 2048 q … 2048 q + 2047 of the weights (all 4096 rows) and of the bias row, and writes
  the [256, 2048] block at (p, q) of the result. Entry (r, c) of that block is therefore entry
  (256 p + r, 2048 q + c) of the affine map of the three whole arrays, the blocks tile the result, and the result
  array after the run is that affine map.
-/
import proofs.«125374_j85014582657518_2_alg».proof.Proof.Gen.KernelIdeal.Value
import proofs.«125374_j85014582657518_2_alg».proof.Proof.Spec
import proofs.«125374_j85014582657518_2_alg».proof.Proof.Body

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Toeplitz
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the `x` window follows the result's block row and sits at block column 0,
    the weight and bias windows sit at block row 0 and follow the result's block column, and the result's block
    indices range over 64 × 2. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 63 ∧ win0_3.index t (1 : Fin 2) ≤ 1 :=
  (by decide +kernel : ∀ t : Fin grid0.N, _)

/-- Every block of the result is some point's. -/
theorem idx_onto : ∀ (p : Fin 64) (q : Fin 2), ∃ t : Fin cfg0.N, win0_3.index t = ![p.val, q.val] :=
  (by decide +kernel : ∀ (p : Fin 64) (q : Fin 2), ∃ t : Fin grid0.N, win0_3.index t = ![p.val, q.val])

/-- A point's arithmetic against the whole arrays: if the three loaded blocks are the rows 256 p + ·, the columns
    2048 q + · and the bias entries 2048 q + · of three whole arrays, entry (r, c) of what the body stores is entry
    (256 p + r, 2048 q + c) of the arrays' affine map. -/
theorem block_entry (x0 : FVec Ideal S256x4096 .f32) (x1 : FVec Ideal S4096x2048 .bf16) (x2 : FVec Ideal S1x2048 .f32)
    (X : (⟨2, ![16384, 4096]⟩ : Shape).Idx → EReal) (W : (⟨2, ![4096, 4096]⟩ : Shape).Idx → EReal)
    (B : (⟨2, ![1, 4096]⟩ : Shape).Idx → EReal) (r : Fin 256) (c : Fin 2048) (R : Fin 16384) (C : Fin 4096)
    (h0 : ∀ k : Fin 4096, x0 (ix2 r k) = X (ix2 R k))
    (h1 : ∀ k : Fin 4096, x1 (ix2 k c) = W (ix2 k C))
    (h2 : x2 (ix2 (0 : Fin 1) c) = B (ix2 (0 : Fin 1) C)) :
    k0_pay1 (F := Ideal) x0 x1 x2 (ix2 r c) = affineAt X W B R C := by
  rw [Body.pay_apply, h2]
  unfold affineAt
  exact congrArg (· + B (ix2 (0 : Fin 1) C)) (Finset.sum_congr rfl fun k _ => by rw [h0 k, h1 k])

/-- The `x` window's block at point `t`, entry (r, k): row (block row × 256 + r) of `x` as the region finds it. -/
theorem xblock_apply (c : Dev nD) (t : Fin cfg0.N) (r : Fin 256) (k : Fin 4096) (R : Fin 16384)
    (hR : R.val = win0_0.index t 0 * 256 + r.val) (h1 : win0_0.index t 1 = 0) :
    (iblk m c 0 t : Vec Ideal S256x4096 .f32) (ix2 r k) = (V m c main_arg0 : S16384x4096.Idx → EReal) (ix2 R k) := by
  unfold iblk
  rw [View.read_apply]
  show V m c main_arg0 _ = V m c main_arg0 _
  refine congrArg (V m c main_arg0 : S16384x4096.Idx → EReal) (funext fun a => Fin.ext ?_)
  match a with
  | ⟨0, _⟩ => show win0_0.index t 0 * 256 + 1 * r.val = R.val; omega
  | ⟨1, _⟩ => show win0_0.index t 1 * 4096 + 1 * k.val = k.val; omega

/-- The weight window's block at point `t`, entry (k, c): column (block column × 2048 + c) of the weights. -/
theorem wblock_apply (c : Dev nD) (t : Fin cfg0.N) (k : Fin 4096) (cc : Fin 2048) (C : Fin 4096)
    (hC : C.val = win0_1.index t 1 * 2048 + cc.val) (h0 : win0_1.index t 0 = 0) :
    (iblk m c 1 t : Vec Ideal S4096x2048 .bf16) (ix2 k cc) = (V m c main_v19 : S4096x4096.Idx → EReal) (ix2 k C) := by
  unfold iblk
  rw [View.read_apply]
  show V m c main_v19 _ = V m c main_v19 _
  refine congrArg (V m c main_v19 : S4096x4096.Idx → EReal) (funext fun a => Fin.ext ?_)
  match a with
  | ⟨0, _⟩ => show win0_1.index t 0 * 4096 + 1 * k.val = k.val; omega
  | ⟨1, _⟩ => show win0_1.index t 1 * 2048 + 1 * cc.val = C.val; omega

/-- The bias window's block at point `t`, entry (0, c): entry (block column × 2048 + c) of the bias row. -/
theorem bblock_apply (c : Dev nD) (t : Fin cfg0.N) (cc : Fin 2048) (C : Fin 4096)
    (hC : C.val = win0_2.index t 1 * 2048 + cc.val) (h0 : win0_2.index t 0 = 0) :
    (iblk m c 2 t : Vec Ideal S1x2048 .f32) (ix2 (0 : Fin 1) cc) = (V m c main_v20 : S1x4096.Idx → EReal) (ix2 (0 : Fin 1) C) := by
  unfold iblk
  rw [View.read_apply]
  show V m c main_v20 _ = V m c main_v20 _
  refine congrArg (V m c main_v20 : S1x4096.Idx → EReal) (funext fun a => Fin.ext ?_)
  match a with
  | ⟨0, _⟩ => show win0_2.index t 0 * 1 + 1 * 0 = 0; omega
  | ⟨1, _⟩ => show win0_2.index t 1 * 2048 + 1 * cc.val = C.val; omega

/-- WHAT POINT `t` WRITES BACK is block `t` of the affine map of the three arrays as the region finds them. -/
theorem flushed_eq (c : Dev nD) (t : Fin cfg0.N) :
    (dats m 0 c).flushed 3 t = ((cfg0.win 3).blk t).view.read (Elt Ideal)
      (affine (V m c main_arg0) (V m c main_v19) (V m c main_v20)) := by
  rw [Value.flushed3]
  unfold out0_3
  rw [View.canon_unit_zero hz]
  simp only [View.ld_unit_zero (S := S256x4096) hz, View.ld_unit_zero (S := S4096x2048) hz, View.ld_unit_zero (S := S1x2048) hz]
  obtain ⟨e0, e1, e2, e3, e4, e5, e6, e7⟩ := idx_facts t
  funext j
  show k0_pay1 (F := Ideal) (iblk m c 0 t) (iblk m c 1 t) (iblk m c 2 t) j
    = affine (V m c main_arg0) (V m c main_v19) (V m c main_v20) (((cfg0.win 3).blk t).view.emb j)
  obtain ⟨r, cc, rfl⟩ : ∃ (r : Fin 256) (cc : Fin 2048), j = ix2 r cc := ⟨j 0, j 1, eq_ix2 j⟩
  have hr : r.val < 256 := r.isLt
  have hc : cc.val < 2048 := cc.isLt
  refine (block_entry (iblk m c 0 t) (iblk m c 1 t) (iblk m c 2 t) (V m c main_arg0) (V m c main_v19) (V m c main_v20) r cc
    ⟨win0_3.index t 0 * 256 + r.val, by omega⟩ ⟨win0_3.index t 1 * 2048 + cc.val, by omega⟩
    (fun k => xblock_apply m c t r k _ (by show win0_3.index t 0 * 256 + r.val = win0_0.index t 0 * 256 + r.val; omega) e1)
    (fun k => wblock_apply m c t k cc _ (by show win0_3.index t 1 * 2048 + cc.val = win0_1.index t 1 * 2048 + cc.val; omega) e2)
    (bblock_apply m c t cc _ (by show win0_3.index t 1 * 2048 + cc.val = win0_2.index t 1 * 2048 + cc.val; omega) e4)).trans ?_
  show affineAt _ _ _ _ _ = affineAt _ _ _ _ _
  refine congrArg₂ (affineAt _ _ _) (Fin.ext ?_) (Fin.ext ?_)
  · show win0_3.index t 0 * 256 + r.val = win0_3.index t 0 * 256 + 1 * r.val; omega
  · show win0_3.index t 1 * 2048 + cc.val = win0_3.index t 1 * 2048 + 1 * cc.val; omega

/-- An index of the result is in point `t`'s block iff each coordinate is in the block's range on its axis. -/
theorem mem_blk (t : Fin cfg0.N) (i : S16384x4096.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v21).slice (win0_3.rect t)).set ↔ _
  rw [View.set_slice_whole, Rect.mem_set_unit]
  exact Iff.rfl

/-- The blocks tile the result: entry (R, C) is in the block of the point with block row R / 256 and block column
    C / 2048. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE RESULT ARRAY after the run: the affine map of `x`, the weights and the bias row as the region finds them. -/
theorem final (c : Dev nD) :
    (dats m 0 c).arrAt 3 cfg0.N = affine (V m c main_arg0) (V m c main_v19) (V m c main_v20) :=
  (dats m 0 c).arrAt_eq_of_cover 3 (affine (V m c main_arg0) (V m c main_v19) (V m c main_v20))
    (fun t _ => flushed_eq m c t) cover

/-- The run, read: the result at that affine map, the three arguments unchanged. -/
theorem run : θ_run defs (onTc (τ := τ) (main (F := Ideal))) ⟨m, fun _ => 0, ρ⟩ fun r => ∀ c : Dev nD,
      r.2.mem ((c : Thread nD τ).loc main_v21) = affine (V m c main_arg0) (V m c main_v19) (V m c main_v20)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.HostSide.lean ====
/-
  What the kernel's program hands to the grid. Before the grid runs, the program builds two arrays on the host from
  the arguments `v` and `b`: the square weight matrix, a gather out of `v` written twice in a row (narrowed, which at
  the ideal values changes nothing) at a [4096, 4096, 1] array of start positions computed from two integer ramps,
  and the bias row, `b` laid out as [1, 4096]. The start positions are computed by the same chain of integer
  operations in the reference program, so they are named here by that program's own stage.
-/
import proofs.«125374_j85014582657518_2_alg».proof.Proof.Gen.KernelIdeal.Frame
import proofs.«125374_j85014582657518_2_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The weight matrix the grid reads: the gather, at the shared start positions, out of `v` written twice. -/
theorem weights_eq (c : Dev nD) :
    (V m c main_v19 : S4096x4096.Idx → EReal)
      = Host.gather gather_S8192_S4096x4096x1_S4096x4096_n_0_n_n_0_2_1
          (truncf (F := Ideal) .bf16 (concatenate S8192 0 [⟨S4096, m ((c : Thread nD τ).loc main_arg1)⟩, ⟨S4096, m ((c : Thread nD τ).loc main_arg1)⟩] concatenates_S4096_S4096_S8192_d0) bitsLt_bf16_f32)
          (Cert.ReferenceIdeal.Read.val_main_v17 (F := Ideal)) := by
  dsimp only [Gen.V, Gen.hostOps0]
  after_results
  rfl

set_option maxHeartbeats 2000000 in
/-- The bias row the grid reads: `b` as a [1, 4096] array. -/
theorem bias_eq (c : Dev nD) :
    (V m c main_v20 : S1x4096.Idx → EReal)
      = shapeCast S1x4096 (m ((c : Thread nD τ).loc main_arg2)) shapeCasts_S4096_S1x4096 := by
  dsimp only [Gen.V, Gen.hostOps0]
  after_results
  rfl

end Cert.KernelIdeal.HostSide

end
-- ==== Proof.RefSide.lean ====
/-
  The reference program's result as the affine map, and the one fact that joins the two programs.

  Both programs gather their weights out of `v` written twice in a row, at start positions computed from two integer
  ramps: the position for entry (p, q) is p·1 + q·1 as a 32-bit word (then passed through a "negative? add 8192"
  select, and clamped by the gather). Word addition is commutative, so the position at (p, q) is the position at
  (q, p) and the gathered matrix is SYMMETRIC — whatever the select and the clamp do, they do the same to both.
  The reference contracts `x` against the second axis of that matrix (entry (o, i) with row i of `x`), the kernel
  against the first; by the symmetry these are the same products, term by term and in the same order.
-/
import proofs.«125374_j85014582657518_2_alg».proof.Proof.Gen.ReferenceIdeal.Read
import proofs.«125374_j85014582657518_2_alg».proof.Proof.Spec
import Idealize.ShloMosaic.Lib.ValueLayout

noncomputable section

open scoped BigOperators

namespace Cert.Toeplitz

open Cert.ReferenceIdeal Cert.ReferenceIdeal.Read Idealize.ShloMosaic Idealize.ShloMosaic.ValueIdx

variable {F : FTy → Type} [FloatOps F]

/-- The bias as a [1, 4096] row: entry (0, c) is entry c of `b`. -/
def biasRow (b : (⟨1, ![4096]⟩ : Shape).Idx → EReal) : (⟨2, ![1, 4096]⟩ : Shape).Idx → EReal :=
  fun i => b (ix1 (i 1))

/-- The two ramps added, at (p, q): p·1 + q·1 as 32-bit words. -/
theorem ramp_sum_apply (p q : Fin 4096) :
    val_main_v11 (F := F) (ix2 p q)
      = IntOp.addi (IntOp.muli (BitVec.ofNat 32 p.val) 1#32) (IntOp.muli (BitVec.ofNat 32 q.val) 1#32) := by
  rw [val_main_v11_apply, val_main_v9_apply, val_main_v10_apply, val_main_v4_apply, val_main_v8_apply,
    val_main_v2_apply, val_main_v3_apply, val_main_v6_apply, val_main_v7_apply, val_main_v1_apply, val_main_v5_apply,
    val_main_c_apply, val_main_c_0_apply]

/-- Word addition commutes: the sum of the ramps at (p, q) is the sum at (q, p). -/
theorem ramp_sum_symm (p q : Fin 4096) : val_main_v11 (F := F) (ix2 p q) = val_main_v11 (F := F) (ix2 q p) := by
  rw [ramp_sum_apply, ramp_sum_apply]
  exact BitVec.add_comm _ _

/-- So the start position for entry (p, q) is the start position for entry (q, p). -/
theorem start_symm (p q : Fin 4096) :
    val_main_v17 (F := F) (takeIdx (ix2 p q)) = val_main_v17 (F := F) (takeIdx (ix2 q p)) := by
  have e : ∀ a b : Fin 4096, idx_main_v17 (takeIdx (ix2 a b)) = ix2 a b := fun a b => funext fun d => by
    match d with
    | ⟨0, _⟩ => rfl
    | ⟨1, _⟩ => rfl
  rw [val_main_v17_apply, val_main_v17_apply, e, e, val_main_v16_apply, val_main_v16_apply,
    val_main_v13_apply, val_main_v13_apply, val_main_v15_apply, val_main_v15_apply,
    val_main_v12_apply, val_main_v12_apply, val_main_v14_apply, val_main_v14_apply,
    val_main_c_1_apply, val_main_c_2_apply, ramp_sum_symm p q]

/-- The gathered weights at (p, q): `v` written twice, at the start position read signed and clamped into 0 … 8191. -/
theorem weights_apply (v : S4096.Idx → EReal) (p q : Fin 4096) :
    val_main_v18 (F := Ideal) v (ix2 p q)
      = val_main_v0 (F := Ideal) v (ix1 ⟨min (val_main_v17 (F := Ideal) (takeIdx (ix2 p q))).toInt.toNat (8192 - 1), by omega⟩) :=
  gather_take_apply (N := 8192) (R := 4096) (C := 4096) (by decide)
    Facts₀.gather_S8192_S4096x4096x1_S4096x4096_n_0_n_n_0_2_1_wf (val_main_v0 (F := Ideal) v) (val_main_v17 (F := Ideal)) (ix2 p q)

/-- THE WEIGHT MATRIX IS SYMMETRIC. -/
theorem weights_symm (v : S4096.Idx → EReal) (p q : Fin 4096) :
    val_main_v18 (F := Ideal) v (ix2 p q) = val_main_v18 (F := Ideal) v (ix2 q p) := by
  rw [weights_apply, weights_apply]
  refine congrArg (val_main_v0 (F := Ideal) v) (congrArg (ix1 (n := 8192)) (Fin.ext ?_))
  show min (val_main_v17 (F := Ideal) (takeIdx (ix2 p q))).toInt.toNat (8192 - 1)
    = min (val_main_v17 (F := Ideal) (takeIdx (ix2 q p))).toInt.toNat (8192 - 1)
  rw [start_symm p q]

/-- THE REFERENCE'S RESULT is the affine map of `x`, the gathered weights and the bias row: its contraction runs over
    the weights' second axis, which by the symmetry is the contraction over the first. -/
theorem reference_eq (X : S16384x4096.Idx → EReal) (v b : S4096.Idx → EReal) :
    val_main_v22 (F := Ideal) X v b = affine X (val_main_v18 (F := Ideal) v) (biasRow b) := by
  funext i
  obtain ⟨R, C, rfl⟩ : ∃ (R : Fin 16384) (C : Fin 4096), i = ix2 R C := ⟨i 0, i 1, eq_ix2 i⟩
  have el : ∀ k : Fin 4096, lidx_main_v19 (ix2 R C) k = ix2 R k := fun k => funext fun a => by
    match a with
    | ⟨0, _⟩ => rfl
    | ⟨1, _⟩ => rfl
  have er : ∀ k : Fin 4096, ridx_main_v19 (ix2 R C) k = ix2 C k := fun k => funext fun a => by
    match a with
    | ⟨0, _⟩ => rfl
    | ⟨1, _⟩ => rfl
  have eb : idx_main_v20 (idx_main_v21 (ix2 R C)) = ix1 C := funext fun a => by
    match a with
    | ⟨0, _⟩ => rfl
  rw [val_main_v22_apply, val_main_v19_apply, val_main_v21_apply, val_main_v20_apply, eb, affine_apply]
  unfold affineAt biasRow
  refine congrArg₂ (· + ·) (Finset.sum_congr rfl fun k _ => ?_) rfl
  rw [el, er, weights_symm v C k]

end Cert.Toeplitz

end
-- ==== Proof.lean ====
/-
  A linear layer whose weights are shared along anti-diagonals: W (k, n) = f (k + n) with f the parameter vector `v`
  written twice in a row, and the layer is x ↦ x · W + b on 16384 rows.

  The kernel's program builds W on the host by a gather at start positions k + n, narrows it (the identity at the
  ideal values), and multiplies 256-row blocks of `x` by 2048-column blocks of W on a 2 × 64 grid, adding the bias
  row: entry (r, c) of the result is ∑ k, x (r, k) · W (k, c) + b (c). The reference builds the same matrix by the
  same gather and contracts `x` against its SECOND axis: ∑ i, x (r, i) · W (c, i) + b (c). The start positions are
  sums of two integer ramps, so the position at (k, c) is the position at (c, k) and W is symmetric; the two sums then
  have the same terms in the same order, and no property of the extended reals beyond that is used — the
  precondition that the inputs are finite is never opened.

  The modules: `Spec` states the affine map; `Body` reads one grid point's arithmetic at an entry; `Whole` goes from
  the blocks to the whole result array; `HostSide` reads the two arrays the host prepares for the grid; `RefSide`
  proves the symmetry and reads the reference's result as the same affine map. Here the pieces are joined.
-/
import proofs.«125374_j85014582657518_2_alg».proof.Defs
import proofs.«125374_j85014582657518_2_alg».proof.Proof.Gen.Kernel
import proofs.«125374_j85014582657518_2_alg».proof.Proof.Gen.Kernel.Skeleton
import proofs.«125374_j85014582657518_2_alg».proof.Proof.Gen.Kernel.Launch
import proofs.«125374_j85014582657518_2_alg».proof.Proof.Gen.Kernel.Points
import proofs.«125374_j85014582657518_2_alg».proof.Proof.Gen.Kernel.Frame
import proofs.«125374_j85014582657518_2_alg».proof.Proof.Gen.KernelIdeal
import proofs.«125374_j85014582657518_2_alg».proof.Proof.Gen.KernelIdeal.Skeleton
import proofs.«125374_j85014582657518_2_alg».proof.Proof.Gen.KernelIdeal.Launch
import proofs.«125374_j85014582657518_2_alg».proof.Proof.Gen.KernelIdeal.Points
import proofs.«125374_j85014582657518_2_alg».proof.Proof.Gen.KernelIdeal.Frame
import proofs.«125374_j85014582657518_2_alg».proof.Proof.Gen.ReferenceIdeal
import proofs.«125374_j85014582657518_2_alg».proof.Proof.Gen.Pre_finite_inputs
import proofs.«125374_j85014582657518_2_alg».proof.Proof.Gen.KernelIdeal.Value
import proofs.«125374_j85014582657518_2_alg».proof.Proof.Gen.ReferenceIdeal.Run
import proofs.«125374_j85014582657518_2_alg».proof.Proof.Gen.ReferenceIdeal.Read
import proofs.«125374_j85014582657518_2_alg».proof.Proof.Whole
import proofs.«125374_j85014582657518_2_alg».proof.Proof.HostSide
import proofs.«125374_j85014582657518_2_alg».proof.Proof.RefSide
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.Toeplitz

/-! ## The two arrays the host prepares, in terms of the arguments -/

/-- The kernel's weight matrix is the reference's: the same gather, at the same start positions, out of the same
    doubled vector (the narrowing in between is the identity at the ideal values). -/
theorem kernel_weights (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v19 : Cert.KernelIdeal.S4096x4096.Idx → EReal)
      = Cert.ReferenceIdeal.Read.val_main_v18 (F := Ideal) (m ((c : Thread Cert.KernelIdeal.nD Cert.KernelIdeal.τ).loc Cert.KernelIdeal.main_arg1)) :=
  (Cert.KernelIdeal.HostSide.weights_eq m c).trans rfl

/-- The kernel's bias array is `b` as a row. -/
theorem kernel_bias (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v20 : Cert.KernelIdeal.S1x4096.Idx → EReal)
      = biasRow (m ((c : Thread Cert.KernelIdeal.nD Cert.KernelIdeal.τ).loc Cert.KernelIdeal.main_arg2)) := by
  refine (Cert.KernelIdeal.HostSide.bias_eq m c).trans (funext fun i => ?_)
  obtain ⟨u, cc, rfl⟩ : ∃ (u : Fin 1) (cc : Fin 4096), i = ix2 u cc := ⟨i 0, i 1, eq_ix2 i⟩
  exact shapeCast_a_1a_apply _ _ u cc

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the affine map of `x`, the symmetric gathered weights of `v` and the bias row of `b`. -/
theorem algebraic : Cert.algebraic_KernelIdeal_ReferenceIdeal := by
  intro m ρ m' ρ' _ hagree
  refine ⟨fun c => affine (m ((c : Thread Cert.KernelIdeal.nD Cert.KernelIdeal.τ).loc Cert.KernelIdeal.main_arg0))
      (Cert.ReferenceIdeal.Read.val_main_v18 (F := Ideal) (m ((c : Thread Cert.KernelIdeal.nD Cert.KernelIdeal.τ).loc Cert.KernelIdeal.main_arg1)))
      (biasRow (m ((c : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩) (Cert.KernelIdeal.Whole.run m ρ)
    rw [Cert.KernelIdeal.Gen.V_main_arg0, kernel_weights, kernel_bias]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, Cert.Toeplitz.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
